-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩

abbrev nBuf : Space → Nat
  | .hbm => 89
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000x1, .f32⟩
  | .hbm, ⟨80, _⟩ => ⟨S1700000x32, .f32⟩
  | .hbm, ⟨81, _⟩ => ⟨S1700000x32, .f32⟩
  | .hbm, ⟨82, _⟩ => ⟨S_, .f32⟩
  | .hbm, ⟨83, _⟩ => ⟨S100000x32, .f32⟩
  | .hbm, ⟨84, _⟩ => ⟨S1700000x1, .i32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x32, .f32⟩
  | .local _ .vmem, ⟨8, _⟩ => ⟨S10000x32, .f32⟩
  | .local _ .vmem, ⟨9, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000x1, .f32⟩
  | .hbm, ⟨80, _⟩ => ⟨S1700000x32, .f32⟩
  | .hbm, ⟨81, _⟩ => ⟨S1700000x32, .f32⟩
  | .hbm, ⟨82, _⟩ => ⟨S_, .f32⟩
  | .hbm, ⟨83, _⟩ => ⟨S100000x32, .f32⟩
  | .hbm, ⟨84, _⟩ => ⟨S1700000x1, .i32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KernelRun.lean ====
/-
  The kernel program's run with its final buffers named.

  @main is eight segments: three stretches of host operations, the first dense product's region, two stretches, the
  second product's region, and a last stretch. The contents of the TensorCore's buffers at each boundary are a fold
  from the launch memory (the frame module's `W0 … W8`: a stretch applies its operations, a region replaces its
  arrays by what its write-backs leave). The frame claim keeps of this only that the arguments end unchanged. Here the
  same launch over the same segments is read for more: every weakly fair execution terminates, nothing faulting, with
  EVERY unscoped buffer at the last boundary's contents `W8` — in particular the result buffer. Stated at any float
  instance.
-/
import proofs.«131406_j4432406250067_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, and every unscoped buffer of every core ends at
    the contents the fold through @main's segments gives it. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The same run, kept to the result buffer and the arguments: the result at the last boundary's contents, each
    argument as launched. -/
theorem run_result : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)
    (run_buffers m ρ)

end Cert.KernelIdeal.Whole

end
-- ==== Proof.LibStages.lean ====
/-
  Reading a long line of host operations in stretches.

  What a line of operations leaves in a buffer is a fold over the line (`StableHlo.after`). Read in one piece, the
  fold's term repeats every shared intermediate result once per use and its evaluation compares every buffer with
  every operation. Cut into stretches the fold is read stretch by stretch: a stretch's results as functions of what
  an ARBITRARY valuation holds in the buffers the stretch reads, and the buffers a stretch does not write kept as
  they were. The whole line's results are then the stretches' functions composed.
  `after_append`, `after_take_drop`: the fold over a line cut in two. `reads_stretch`: a stretch's result read off
  (the literal list computed, each operation's result rewritten once, the rest by unfolding). `keeps_stretch`: a buffer no
  operation of a stretch writes is kept (the references' inequalities decided one by one).
-/
import Idealize.ShloMosaic.Lib.StableHlo.Run

noncomputable section

namespace Cert.LibStages

open Idealize.ShloMosaic Idealize.ShloMosaic.StableHlo

variable {τ : Topo} {sig : RefSig} {Val : EltTy → Type}

/-- Two stretches run one after the other: the second from what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line cut after its first `k` operations. -/
theorem after_take_drop (k : Nat) (l : List (HloOp τ sig Val)) (V : Valuation τ sig Val) :
    after l V = after (l.drop k) (after (l.take k) V) := by
  rw [← after_append, List.take_append_drop]

/-- `reads_stretch [defs]`: closes `after ‹literal stretch› W ↑b = ‹the stretch's function of W's contents›`. -/
syntax "reads_stretch" "[" Lean.Parser.Tactic.simpLemma,* "]" : tactic
macro_rules
  | `(tactic| reads_stretch [$defs,*]) => `(tactic| (
      simp only [$defs,*, List.take_succ_cons, List.take_zero, List.drop_succ_cons, List.drop_zero,
        List.flatten_cons, List.flatten_nil, List.append_nil, List.cons_append, List.nil_append]
      after_results_simp
      rfl))

/-- `keeps_stretch [defs]`: closes `after ‹literal stretch› W ↑r = W ↑r` when no operation of the stretch writes `r`. -/
syntax "keeps_stretch" "[" Lean.Parser.Tactic.simpLemma,* "]" : tactic
macro_rules
  | `(tactic| keeps_stretch [$defs,*]) => `(tactic| (
      refine StableHlo.after_of_forall_not_mem _ _ (List.forall_iff_forall_mem.mp ?_)
      simp only [$defs,*, List.take_succ_cons, List.take_zero, List.drop_succ_cons, List.drop_zero,
        List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, StableHlo.nary_writes,
        Finset.mem_singleton]
      repeat' apply And.intro
      all_goals exact StableHlo.devRef_ne_of_ne (by decide)))

end Cert.LibStages

end
-- ==== Proof.Chain.lean ====
/-
  The graph side of the two convolution layers, as functions.

  Both programs spell the same host operations around their two dense products. From the edge list: the source and
  target endpoints with one self-loop per node appended; the degree of every node (a scatter-add of ones over the
  targets); its inverse square root where the degree is positive and 0 elsewhere; the weight of every edge, the product
  of that normaliser at its two endpoints. From a layer's dense product `h`: the rows of `h` gathered at the sources,
  scaled by the edge weights, scatter-added at the targets, plus the bias — and, between the layers, the maximum with 0.
  Each is written once here, over the kernel program's shape records, for any float instance; nothing in this
  certificate ever opens one of them: the two programs are compared with these functions closed.
-/
import proofs.«131406_j4432406250067_1_alg».proof.Proof.Gen.KernelIdeal

noncomputable section

namespace Cert.KernelIdeal.Chain

open Idealize.ShloMosaic Cert.KernelIdeal Cert.KernelIdeal.Facts₀ Cert.KernelIdeal.Facts

variable {F : FTy → Type} [FloatOps F]

/-- The source endpoints (row 0 of the edge list) followed by the self-loops' 0 … 99999. -/
def sources (e : (⟨S2x1600000, .i32⟩ : BufTy).Contents (Elt F)) : (⟨S1700000, .i32⟩ : BufTy).Contents (Elt F) :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

/-- The target endpoints (row 1 of the edge list) followed by the self-loops' 0 … 99999. -/
def targets (e : (⟨S2x1600000, .i32⟩ : BufTy).Contents (Elt F)) : (⟨S1700000, .i32⟩ : BufTy).Contents (Elt F) :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- An endpoint vector laid as a column of start indices. -/
def column (v : (⟨S1700000, .i32⟩ : BufTy).Contents (Elt F)) : (⟨S1700000x1, .i32⟩ : BufTy).Contents (Elt F) :=
  broadcastInDim S1700000x1 ![0] bcast_S1700000_S1700000x1_0 v

/-- The same with a negative endpoint wrapped round (+100000) first: the start indices of a gather. -/
def wrapped (v : (⟨S1700000, .i32⟩ : BufTy).Contents (Elt F)) : (⟨S1700000x1, .i32⟩ : BufTy).Contents (Elt F) :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- Every node's degree: ones scatter-added over the targets. -/
def degree (dst : (⟨S1700000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32))
    (column (F := F) dst) (broadcastInDim S1700000 ![] bcast_S_S1700000 (constant S_ .f32 0x3F800000#32))

/-- Where the degree is positive, and its inverse square root: the two arrays the normaliser selects from. -/
def positive (deg : (⟨S100000, .f32⟩ : BufTy).Contents (Elt F)) : (⟨S100000, .i1⟩ : BufTy).Contents (Elt F) :=
  cmpf .ogt deg (broadcastInDim S100000 ![] bcast_S_S100000 (constant S_ .f32 0x00000000#32))

/-- The normaliser: the inverse square root of a positive degree, 0 elsewhere. -/
def normaliser (deg : (⟨S100000, .f32⟩ : BufTy).Contents (Elt F)) : (⟨S100000, .f32⟩ : BufTy).Contents (Elt F) :=
  select (positive deg) (Host.rsqrt deg) (broadcastInDim S100000 ![] bcast_S_S100000 (id (constant S_ .f32 0x00000000#32)))

/-- An edge's weight: the normaliser at its source times the normaliser at its target. -/
def edgeWeight (nrm : (⟨S100000, .f32⟩ : BufTy).Contents (Elt F)) (src dst : (⟨S1700000, .i32⟩ : BufTy).Contents (Elt F)) :
    (⟨S1700000, .f32⟩ : BufTy).Contents (Elt F) :=
  mulf (Host.gather gather_S100000_S1700000x1_S1700000_n_0_n_n_0_1_1 nrm (wrapped (F := F) src))
    (Host.gather gather_S100000_S1700000x1_S1700000_n_0_n_n_0_1_1 nrm (wrapped (F := F) dst))

/-- The first layer's aggregation: rows of `h` gathered at the sources, scaled by the edge weights, scatter-added at the
    targets, plus the bias. -/
def aggregate64 (h : (⟨S100000x64, .f32⟩ : BufTy).Contents (Elt F)) (src dst : (⟨S1700000, .i32⟩ : BufTy).Contents (Elt F))
    (wt : (⟨S1700000, .f32⟩ : BufTy).Contents (Elt F)) (b : (⟨S64, .f32⟩ : BufTy).Contents (Elt F)) : (⟨S100000x64, .f32⟩ : BufTy).Contents (Elt F) :=
  addf (Host.scatterAdd scatter_S100000x64_S1700000x1_S1700000x64_1_0_0_1 (broadcastInDim S100000x64 ![] bcast_S_S100000x64 (constant S_ .f32 0x00000000#32))
      (column (F := F) dst)
      (mulf (Host.gather gather_S100000x64_S1700000x1_S1700000x64_1_0_n_n_0_1_164 h (wrapped (F := F) src))
        (broadcastInDim S1700000x64 ![0, 1] bcast_S1700000x1_S1700000x64_0_1 (broadcastInDim S1700000x1 ![0] bcast_S1700000_S1700000x1_0 wt))))
    (broadcastInDim S100000x64 ![0, 1] bcast_S1x64_S100000x64_0_1 (broadcastInDim S1x64 ![1] bcast_S64_S1x64_1 b))

/-- The maximum with 0 between the layers. -/
def positivePart (x : (⟨S100000x64, .f32⟩ : BufTy).Contents (Elt F)) : (⟨S100000x64, .f32⟩ : BufTy).Contents (Elt F) :=
  maximumf x (broadcastInDim S100000x64 ![] bcast_S_S100000x64 (constant S_ .f32 0x00000000#32))

/-- The second layer's aggregation. -/
def aggregate32 (h : (⟨S100000x32, .f32⟩ : BufTy).Contents (Elt F)) (src dst : (⟨S1700000, .i32⟩ : BufTy).Contents (Elt F))
    (wt : (⟨S1700000, .f32⟩ : BufTy).Contents (Elt F)) (b : (⟨S32, .f32⟩ : BufTy).Contents (Elt F)) : (⟨S100000x32, .f32⟩ : BufTy).Contents (Elt F) :=
  addf (Host.scatterAdd scatter_S100000x32_S1700000x1_S1700000x32_1_0_0_1 (broadcastInDim S100000x32 ![] bcast_S_S100000x32 (constant S_ .f32 0x00000000#32))
      (column (F := F) dst)
      (mulf (Host.gather gather_S100000x32_S1700000x1_S1700000x32_1_0_n_n_0_1_132 h (wrapped (F := F) src))
        (broadcastInDim S1700000x32 ![0, 1] bcast_S1700000x1_S1700000x32_0_1 (broadcastInDim S1700000x1 ![0] bcast_S1700000_S1700000x1_0 wt))))
    (broadcastInDim S100000x32 ![0, 1] bcast_S1x32_S100000x32_0_1 (broadcastInDim S1x32 ![1] bcast_S32_S1x32_1 b))

end Cert.KernelIdeal.Chain

end
-- ==== Proof.LibDotSum.lean ====
/-
  A matrix product's sum over the contraction index, re-indexed over the contracted extent: for the plain dimension numbers
  (left operand contracted on its columns, right operand on its rows, no batch axes) the sum over the one-axis contraction
  shape of the operands' products at the dot's operand indices is the sum over `kk : Fin K` of the left operand at
  (row of the output index, `kk`) times the right operand at (`kk`, column of the output index).
-/
import Idealize.ShloMosaic.Lib.ValueIdx
import Idealize.ShloMosaic.PureOps.Ideal.Laws

namespace Cert.Lib.DotSum

open Idealize.ShloMosaic Idealize.ShloMosaic.ValueIdx

variable {M K N : Nat} (d : DotDims ⟨2, ![M, K]⟩ ⟨2, ![K, N]⟩ ⟨2, ![M, N]⟩)

/-- The contraction shape has one axis, -/
theorem contr_rank (hlc : d.lhsContracting = [1]) : d.contr.rank = 1 := by
  rw [d.rank_contr, hlc]; rfl

/-- of the contracted extent. -/
theorem contr_size (hlc : d.lhsContracting = [1]) :
    d.contr.size ⟨0, by rw [contr_rank d hlc]; exact Nat.one_pos⟩ = K := by
  have h := d.size_contr 0 (by rw [hlc]; exact Nat.one_pos)
  rw [h, List.getElem_of_eq hlc]; rfl

/-- A coordinate of an output index depends on the axis's number only. -/
theorem out_coord (j : (⟨2, ![M, N]⟩ : Shape).Idx) (p q : Nat) (hp : p < 2) (hq : q < 2) (h : p = q) :
    (j ⟨p, hp⟩).val = (j ⟨q, hq⟩).val := by subst h; rfl

/-- The left operand's index reads the output's row on its rows, -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact out_coord j _ _ _ _ (by rw [hlb, hln]; rfl)

/-- the right operand's the output's column on its columns. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact out_coord j _ _ _ _ (by rw [hlb, hln, hrn]; rfl)

/-- THE SUM, RE-INDEXED: over the contracted extent, the left operand along the output's row times the right operand down the
    output's column. -/
theorem dot_sum (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    (∑ k : d.contr.Idx, l (d.lhsIdx j k) * r (d.rhsIdx j k)) = ∑ kk : Fin K, l (ix2 (j 0) kk) * r (ix2 kk (j 1)) := by
  have hr := contr_rank d hlc
  have hs := contr_size d hlc
  rw [← Equiv.sum_comp (contrEquiv1 d K hr hs).symm]
  refine Finset.sum_congr rfl fun kk _ => ?_
  have hk := contrEquiv1_symm_val d K hr hs kk
  have el : d.lhsIdx j ((contrEquiv1 d K hr hs).symm kk) = ix2 (j 0) kk := funext fun a => Fin.ext (by
    match a with
    | ⟨0, _⟩ => exact lhs_row d hln hlb j _
    | ⟨1, _⟩ => exact (d.lhsIdx_val_of_single hlc j _).trans hk)
  have er : d.rhsIdx j ((contrEquiv1 d K hr hs).symm kk) = ix2 kk (j 1) := funext fun a => Fin.ext (by
    match a with
    | ⟨0, _⟩ => exact (d.rhsIdx_val_of_single hrc j _).trans hk
    | ⟨1, _⟩ => exact rhs_col d hln hrn hlb hrb j _)
  rw [el, er]; rfl

end Cert.Lib.DotSum
-- ==== Proof.LibDot2.lean ====
/-
  The two matrix products read at an index as a sum over the contracted extent, for the plain dimension numbers (left
  operand contracted on its columns, right operand on its rows, no batch axes): the kernel's product into a zero
  accumulator and the host's product are both the sum over `kk` of left (row, kk) times right (kk, column).
-/
import proofs.«131406_j4432406250067_1_alg».proof.Proof.LibDotSum

namespace Cert.Lib.DotSum

open Idealize.ShloMosaic Idealize.ShloMosaic.ValueIdx

variable {M K N : Nat} (d : DotDims ⟨2, ![M, K]⟩ ⟨2, ![K, N]⟩ ⟨2, ![M, N]⟩)

/-- The kernel's matrix product into a zero accumulator. -/
theorem matmul_zero_at (hlc : d.lhsContracting = [1]) (hrc : d.rhsContracting = [0]) (hln : d.lhsNonContracting = [0])
    (hrn : d.rhsNonContracting = [1]) (hlb : d.lhsBatch = []) (hrb : d.rhsBatch = []) {φ₁ φ₂ : FTy} (prec : Option ContractPrecision)
    (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ kk : Fin K, l (ix2 p kk) * r (ix2 kk q) :=
  (Ideal.matmul_constant_zero_apply d prec l r (ix2 p q)).trans (dot_sum d hlc hrc hln hrn hlb hrb l r (ix2 p q))

/-- The host's matrix product. -/
theorem dotGeneral_at (hlc : d.lhsContracting = [1]) (hrc : d.rhsContracting = [0]) (hln : d.lhsNonContracting = [0])
    (hrn : d.rhsNonContracting = [1]) (hlb : d.lhsBatch = []) (hrb : d.rhsBatch = []) {φ₁ φ₂ : FTy} (prec : Option ContractPrecision)
    (sched : HostSchedule) (l : FVec Ideal ⟨2, ![M, K]⟩ φ₁) (r : FVec Ideal ⟨2, ![K, N]⟩ φ₂) (p : Fin M) (q : Fin N) :
    FloatOps.dotGeneral d prec sched l r (ix2 p q) = ∑ kk : Fin K, l (ix2 p kk) * r (ix2 kk q) :=
  (Ideal.dotGeneral_apply d prec sched l r (ix2 p q)).trans (dot_sum d hlc hrc hln hrn hlb hrb l r (ix2 p q))

end Cert.Lib.DotSum
-- ==== Proof.LibDense.lean ====
/-
  The dense half of a graph-convolution layer: every node's feature row against the weight matrix.

  `rowsTimes x w` is the product of an [M, K] matrix with a [K, N] matrix, entry (p, q) the sum over the
  contracted extent of x(p, kk) · w(kk, q). Two readings of it:
  * the host's `dot_general` with the plain dimension numbers (columns of the left operand against rows of the
    right, no batch axes) IS that product (`dotGeneral_eq`);
  * a product of a BLOCK of B rows with the whole weight matrix into a zero accumulator, the operands narrowed to
    bf16 on the way — which changes nothing on the extended reals —, has at (p, q) the same sum over the block's
    row p (`blockTimes_at`).
  No law beyond `0 + s = s` is used: the sums on the two sides have the same terms in the same order.
-/
import proofs.«131406_j4432406250067_1_alg».proof.Proof.LibDot2

noncomputable section

namespace Cert.Dense

open Idealize.ShloMosaic Idealize.ShloMosaic.ValueIdx

variable {M K N : Nat}

/-- The product of `x : [M, K]` with `w : [K, N]`: entry `i` is row `i 0` of `x` against column `i 1` of `w`. -/
def rowsTimes (x : FVec Ideal ⟨2, ![M, K]⟩ .f32) (w : FVec Ideal ⟨2, ![K, N]⟩ .f32) : FVec Ideal ⟨2, ![M, N]⟩ .f32 :=
  fun i => ∑ kk : Fin K, x (ix2 (i 0) kk) * w (ix2 kk (i 1))

/-- The host's product with the plain dimension numbers is `rowsTimes`. -/
theorem dotGeneral_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = []) (prec : Option ContractPrecision)
    (x : FVec Ideal ⟨2, ![M, K]⟩ .f32) (w : FVec Ideal ⟨2, ![K, N]⟩ .f32) :
    Host.dotGeneral d prec x w = rowsTimes x w := by
  funext i
  obtain ⟨p, q, rfl⟩ : ∃ (p : Fin M) (q : Fin N), i = ix2 p q := ⟨i 0, i 1, eq_ix2 i⟩
  exact Cert.Lib.DotSum.dotGeneral_at d hlc hrc hln hrn hlb hrb prec .single x w p q

/-- A block of `B` rows against the whole weight matrix, into a zero accumulator, operands narrowed to bf16: at (p, q)
    the sum over the block's row `p` against column `q`. -/
theorem blockTimes_at {B : Nat} (d : DotDims ⟨2, ![B, K]⟩ ⟨2, ![K, N]⟩ ⟨2, ![B, N]⟩)
    (hlc : d.lhsContracting = [1]) (hrc : d.rhsContracting = [0]) (hln : d.lhsNonContracting = [0])
    (hrn : d.rhsNonContracting = [1]) (hlb : d.lhsBatch = []) (hrb : d.rhsBatch = []) (prec : Option ContractPrecision)
    (xb : FVec Ideal ⟨2, ![B, K]⟩ .f32) (w : FVec Ideal ⟨2, ![K, N]⟩ .f32)
    (h1 : FTy.bits .bf16 < FTy.bits .f32) (p : Fin B) (q : Fin N) :
    FloatOps.matmul d prec (truncf .bf16 xb h1) (truncf .bf16 w h1) (constant ⟨2, ![B, N]⟩ .f32 0x00000000#32) (ix2 p q)
      = ∑ kk : Fin K, xb (ix2 p kk) * w (ix2 kk q) :=
  Cert.Lib.DotSum.matmul_zero_at d hlc hrc hln hrn hlb hrb prec (truncf .bf16 xb h1) (truncf .bf16 w h1) p q

end Cert.Dense

end
-- ==== Proof.Network.lean ====
/-
  The two-layer graph convolution as ONE function of the six arguments.

  With the graph side closed in the functions of the chain module and each dense step the product `rowsTimes`:
  out = aggregate₂ (relu (aggregate₁ (x · W1) + b1) · W2) + b2, where both aggregations use the same endpoints and the
  same edge weights, all computed from the edge list alone. Both programs' results are shown equal to this term; it is
  never opened.
-/
import proofs.«131406_j4432406250067_1_alg».proof.Proof.Chain
import proofs.«131406_j4432406250067_1_alg».proof.Proof.LibDense

noncomputable section

namespace Cert.KernelIdeal.Chain

open Idealize.ShloMosaic Cert.KernelIdeal Cert.Dense

/-- Every edge's weight, from the edge list: the normaliser of the degrees at the edge's two endpoints. -/
def weights {F : FTy → Type} [FloatOps F] (e : (⟨S2x1600000, .i32⟩ : BufTy).Contents (Elt F)) : (⟨S1700000, .f32⟩ : BufTy).Contents (Elt F) :=
  edgeWeight (normaliser (degree (targets (F := F) e))) (sources (F := F) e) (targets (F := F) e)

/-- The network on the extended reals. -/
def network (x : (⟨S100000x128, .f32⟩ : BufTy).Contents (Elt Ideal)) (e : (⟨S2x1600000, .i32⟩ : BufTy).Contents (Elt Ideal))
    (w1 : (⟨S128x64, .f32⟩ : BufTy).Contents (Elt Ideal)) (b1 : (⟨S64, .f32⟩ : BufTy).Contents (Elt Ideal))
    (w2 : (⟨S64x32, .f32⟩ : BufTy).Contents (Elt Ideal)) (b2 : (⟨S32, .f32⟩ : BufTy).Contents (Elt Ideal)) :
    (⟨S100000x32, .f32⟩ : BufTy).Contents (Elt Ideal) :=
  aggregate32
    (rowsTimes (M := 100000) (K := 64) (N := 32)
      (positivePart (aggregate64 (rowsTimes (M := 100000) (K := 128) (N := 64) x w1)
        (sources (F := Ideal) e) (targets (F := Ideal) e) (weights (F := Ideal) e) b1)) w2)
    (sources (F := Ideal) e) (targets (F := Ideal) e) (weights (F := Ideal) e) b2

end Cert.KernelIdeal.Chain

end
-- ==== Proof.Product0.lean ====
/-
  The first dense product, read off its pipeline.

  The region runs the product on a grid of 10 points: point t stages rows 10000·t … 10000·t + 9999 of the feature
  matrix and the whole weight matrix, multiplies them into a zero accumulator, and writes the 10000 × 64 result back
  as rows 10000·t … of the output. An entry of that block depends only on its own row of the feature matrix and its
  own column of the weights, so what point t writes back is block t of ONE whole-array function, the product
  `rowsTimes` of the region's two input arrays; the ten blocks tile the output's rows (the point covering row r is
  r / 10000), and the output array after the region is that product. Stated for ANY contents `V` of the buffers when
  the region is entered.
-/
import proofs.«131406_j4432406250067_1_alg».proof.Proof.Gen.KernelIdeal.Frame
import proofs.«131406_j4432406250067_1_alg».proof.Proof.LibDense
import Idealize.ShloMosaic.Lib.Pipeline.Value

set_option maxRecDepth 16384

noncomputable section

namespace Cert.KernelIdeal.Product0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Dense

variable (V : (c : Dev nD) → (b : Ref sig .tc) → Buf (Elt Ideal) ((c : Thread nD τ).loc b))

theorem zero_offset : (![0, 0] : Fin 2 → Nat) = fun _ => 0 := funext fun a => by fin_cases a <;> rfl

/-- The grid has ten points. -/
theorem point_lt (t : Fin cfg0.N) : t.val < 10 := lt_of_lt_of_eq t.isLt N_0

/-- Row `p` of point `t`'s block is row 10000·t + p of the array. -/
def row (t : Fin cfg0.N) (p : Fin 10000) : Fin 100000 :=
  ⟨t.val * 10000 + p.val, by have := point_lt t; have := p.isLt; omega⟩

/-- The body's stored value at entry (p, q) of a block: row p of the staged rows against column q of the staged weights
    (the narrowing to bf16 changes nothing; the accumulator starts at zero). -/
theorem body_at (x0 : Vec Ideal S10000x128 .f32) (x1 : Vec Ideal S128x64 .f32) (p : Fin 10000) (q : Fin 64) :
    k0_pay1 x0 x1 (ix2 p q) = ∑ kk : Fin 128, x0 (ix2 p kk) * x1 (ix2 kk q) := by
  unfold k0_pay1
  exact blockTimes_at dot_S10000x128_S128x64_S10000x64_1_0_0_1_n_n rfl rfl rfl rfl rfl rfl none x0 x1 _ p q

/-- The same at any index of the block, against a whole-array product whose row `r` holds the block's row and whose
    weights are the staged ones. -/
theorem entry_eq (x0 : Vec Ideal S10000x128 .f32) (x1 : Vec Ideal S128x64 .f32)
    (X : S100000x128.Idx → EReal) (Wt : S128x64.Idx → EReal) (j : S10000x64.Idx) (r : Fin 100000)
    (hx : ∀ kk : Fin 128, x0 (ix2 (j 0) kk) = X (ix2 r kk)) (hw : ∀ kk : Fin 128, x1 (ix2 kk (j 1)) = Wt (ix2 kk (j 1))) :
    k0_pay1 x0 x1 j = rowsTimes X Wt (ix2 r (j 1)) :=
  calc k0_pay1 x0 x1 j = k0_pay1 x0 x1 (ix2 (j 0) (j 1)) := congrArg _ (eq_ix2 j)
    _ = ∑ kk : Fin 128, x0 (ix2 (j 0) kk) * x1 (ix2 kk (j 1)) := body_at x0 x1 (j 0) (j 1)
    _ = ∑ kk : Fin 128, X (ix2 r kk) * Wt (ix2 kk (j 1)) := Finset.sum_congr rfl fun kk _ => by rw [hx kk, hw kk]
    _ = rowsTimes X Wt (ix2 r (j 1)) := rfl

/-- The printed index maps over the grid: the feature rows and the output rows move with the point, the weights and
    every column block stay at 0. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The staged feature rows at point `t`: row `p` is row `row t p` of the region's first input array. -/
theorem read_rows (c : Dev nD) (t : Fin cfg0.N) (p : Fin 10000) (kk : Fin 128) :
    iblk0 V c 0 t (ix2 p kk) = (V c main_arg0 : S100000x128.Idx → EReal) (ix2 (row t p) kk) := by
  obtain ⟨e00, e01, -, -, -, -⟩ := index_maps t
  show (V c main_arg0 : S100000x128.Idx → EReal) (((cfg0.win 0).blk t).view.emb (ix2 p kk)) = _
  refine congrArg _ ?_
  funext a; apply Fin.ext
  match a with
  | ⟨0, _⟩ => show win0_0.index t (0 : Fin 2) * 10000 + 1 * p.val = t.val * 10000 + p.val; omega
  | ⟨1, _⟩ => show win0_0.index t (1 : Fin 2) * 128 + 1 * kk.val = kk.val; omega

/-- The staged weights at any point are the region's second input array. -/
theorem read_weights (c : Dev nD) (t : Fin cfg0.N) (kk : Fin 128) (q : Fin 64) :
    iblk0 V c 1 t (ix2 kk q) = (V c main_arg2 : S128x64.Idx → EReal) (ix2 kk q) := by
  obtain ⟨-, -, e10, e11, -, -⟩ := index_maps t
  show (V c main_arg2 : S128x64.Idx → EReal) (((cfg0.win 1).blk t).view.emb (ix2 kk q)) = _
  refine congrArg _ ?_
  funext a; apply Fin.ext
  match a with
  | ⟨0, _⟩ => show win0_1.index t (0 : Fin 2) * 128 + 1 * kk.val = kk.val; omega
  | ⟨1, _⟩ => show win0_1.index t (1 : Fin 2) * 64 + 1 * q.val = q.val; omega

/-- Entry `j` of point `t`'s output block sits at row `row t (j 0)`, column `j 1` of the output array. -/
theorem out_at (t : Fin cfg0.N) (j : S10000x64.Idx) :
    ((cfg0.win 2).blk t).view.emb j = (ix2 (row t (j 0)) (j 1) : S100000x64.Idx) := by
  obtain ⟨-, -, -, -, e20, e21⟩ := index_maps t
  funext a; apply Fin.ext
  match a with
  | ⟨0, _⟩ => show win0_2.index t (0 : Fin 2) * 10000 + 1 * (j 0).val = t.val * 10000 + (j 0).val; omega
  | ⟨1, _⟩ => show win0_2.index t (1 : Fin 2) * 64 + 1 * (j 1).val = (j 1).val; omega

/-- WHAT POINT `t` WRITES BACK is block `t` of the product of the region's two input arrays. -/
theorem flushed_eq (c : Dev nD) (t : Fin cfg0.N) :
    (dat0 V c).flushed 2 t = ((cfg0.win 2).blk t).view.read (Elt Ideal)
      (rowsTimes (V c main_arg0 : S100000x128.Idx → EReal) (V c main_arg2 : S128x64.Idx → EReal) : S100000x64.Idx → EReal) := by
  show (cfg0.win 2).cut (grid0.coords t) ((dat0 V c).after 2 t) = _
  rw [after0_2]
  unfold out0_2
  rw [View.canon_unit_zero zero_offset]
  simp only [View.ld_unit_zero (S := S10000x128) zero_offset, View.ld_unit_zero (S := S128x64) zero_offset]
  funext j
  show k0_pay1 (iblk0 V c 0 t) (iblk0 V c 1 t) j
    = rowsTimes (V c main_arg0 : S100000x128.Idx → EReal) (V c main_arg2 : S128x64.Idx → EReal) (((cfg0.win 2).blk t).view.emb j)
  rw [out_at t j]
  exact entry_eq (iblk0 V c 0 t) (iblk0 V c 1 t) (V c main_arg0) (V c main_arg2) j (row t (j 0))
    (fun kk => read_rows V c t (j 0) kk) (fun kk => read_weights V c t kk (j 1))

/-- An index of the output array is in point `t`'s block iff each coordinate is in the block's range on its axis. -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Every index of the output array is in some point's block: row r is covered by point r / 10000. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : (i 0).val / 10000 < cfg0.N := lt_of_lt_of_eq (by omega : (i 0).val / 10000 < 10) N_0.symm
  obtain ⟨-, -, -, -, e20, e21⟩ := index_maps ⟨(i 0).val / 10000, hN⟩
  have e20' : win0_2.index ⟨(i 0).val / 10000, hN⟩ (0 : Fin 2) = (i 0).val / 10000 := e20
  refine ⟨⟨(i 0).val / 10000, hN⟩, flush0_2 _, ?_⟩
  rw [mem_block]
  intro a
  match a with
  | ⟨0, _⟩ => show win0_2.index ⟨(i 0).val / 10000, hN⟩ (0 : Fin 2) * 10000 ≤ (i 0).val ∧ (i 0).val < win0_2.index ⟨(i 0).val / 10000, hN⟩ (0 : Fin 2) * 10000 + 10000; omega
  | ⟨1, _⟩ => show win0_2.index ⟨(i 0).val / 10000, hN⟩ (1 : Fin 2) * 64 ≤ (i 1).val ∧ (i 1).val < win0_2.index ⟨(i 0).val / 10000, hN⟩ (1 : Fin 2) * 64 + 64; omega

/-- THE OUTPUT ARRAY after the region is the product of the region's two input arrays. -/
theorem product (c : Dev nD) :
    (dat0 V c).arrAt 2 cfg0.N
      = (rowsTimes (V c main_arg0 : S100000x128.Idx → EReal) (V c main_arg2 : S128x64.Idx → EReal) : S100000x64.Idx → EReal) :=
  (dat0 V c).arrAt_eq_of_cover 2 _ (fun t _ => flushed_eq V c t) (covered)

end Cert.KernelIdeal.Product0

end
-- ==== Proof.Product1.lean ====
/-
  The second dense product, read off its pipeline.

  The region runs the product on a grid of 10 points: point t stages rows 10000·t … 10000·t + 9999 of the feature
  matrix and the whole weight matrix, multiplies them into a zero accumulator, and writes the 10000 × 32 result back
  as rows 10000·t … of the output. An entry of that block depends only on its own row of the feature matrix and its
  own column of the weights, so what point t writes back is block t of ONE whole-array function, the product
  `rowsTimes` of the region's two input arrays; the ten blocks tile the output's rows (the point covering row r is
  r / 10000), and the output array after the region is that product. Stated for ANY contents `V` of the buffers when
  the region is entered.
-/
import proofs.«131406_j4432406250067_1_alg».proof.Proof.Gen.KernelIdeal.Frame
import proofs.«131406_j4432406250067_1_alg».proof.Proof.LibDense
import Idealize.ShloMosaic.Lib.Pipeline.Value

set_option maxRecDepth 16384

noncomputable section

namespace Cert.KernelIdeal.Product1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Dense

variable (V : (c : Dev nD) → (b : Ref sig .tc) → Buf (Elt Ideal) ((c : Thread nD τ).loc b))

theorem zero_offset : (![0, 0] : Fin 2 → Nat) = fun _ => 0 := funext fun a => by fin_cases a <;> rfl

/-- The grid has ten points. -/
theorem point_lt (t : Fin cfg1.N) : t.val < 10 := lt_of_lt_of_eq t.isLt N_1

/-- Row `p` of point `t`'s block is row 10000·t + p of the array. -/
def row (t : Fin cfg1.N) (p : Fin 10000) : Fin 100000 :=
  ⟨t.val * 10000 + p.val, by have := point_lt t; have := p.isLt; omega⟩

/-- The body's stored value at entry (p, q) of a block: row p of the staged rows against column q of the staged weights
    (the narrowing to bf16 and the cast to the same shape change nothing; the accumulator starts at zero). -/
theorem body_at (x0 : Vec Ideal S10000x64 .f32) (x1 : Vec Ideal S64x32 .f32) (p : Fin 10000) (q : Fin 32) :
    k1_pay1 x0 x1 (ix2 p q) = ∑ kk : Fin 64, x0 (ix2 p kk) * x1 (ix2 kk q) := by
  unfold k1_pay1
  rw [shapeCast_self]
  exact blockTimes_at dot_S10000x64_S64x32_S10000x32_1_0_0_1_n_n rfl rfl rfl rfl rfl rfl none x0 x1 _ p q

/-- The same at any index of the block, against a whole-array product whose row `r` holds the block's row and whose
    weights are the staged ones. -/
theorem entry_eq (x0 : Vec Ideal S10000x64 .f32) (x1 : Vec Ideal S64x32 .f32)
    (X : S100000x64.Idx → EReal) (Wt : S64x32.Idx → EReal) (j : S10000x32.Idx) (r : Fin 100000)
    (hx : ∀ kk : Fin 64, x0 (ix2 (j 0) kk) = X (ix2 r kk)) (hw : ∀ kk : Fin 64, x1 (ix2 kk (j 1)) = Wt (ix2 kk (j 1))) :
    k1_pay1 x0 x1 j = rowsTimes X Wt (ix2 r (j 1)) :=
  calc k1_pay1 x0 x1 j = k1_pay1 x0 x1 (ix2 (j 0) (j 1)) := congrArg _ (eq_ix2 j)
    _ = ∑ kk : Fin 64, x0 (ix2 (j 0) kk) * x1 (ix2 kk (j 1)) := body_at x0 x1 (j 0) (j 1)
    _ = ∑ kk : Fin 64, X (ix2 r kk) * Wt (ix2 kk (j 1)) := Finset.sum_congr rfl fun kk _ => by rw [hx kk, hw kk]
    _ = rowsTimes X Wt (ix2 r (j 1)) := rfl

/-- The printed index maps over the grid: the feature rows and the output rows move with the point, the weights and
    every column block stay at 0. -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The staged feature rows at point `t`: row `p` is row `row t p` of the region's first input array. -/
theorem read_rows (c : Dev nD) (t : Fin cfg1.N) (p : Fin 10000) (kk : Fin 64) :
    iblk1 V c 0 t (ix2 p kk) = (V c main_v47 : S100000x64.Idx → EReal) (ix2 (row t p) kk) := by
  obtain ⟨e00, e01, -, -, -, -⟩ := index_maps t
  show (V c main_v47 : S100000x64.Idx → EReal) (((cfg1.win 0).blk t).view.emb (ix2 p kk)) = _
  refine congrArg _ ?_
  funext a; apply Fin.ext
  match a with
  | ⟨0, _⟩ => show win1_0.index t (0 : Fin 2) * 10000 + 1 * p.val = t.val * 10000 + p.val; omega
  | ⟨1, _⟩ => show win1_0.index t (1 : Fin 2) * 64 + 1 * kk.val = kk.val; omega

/-- The staged weights at any point are the region's second input array. -/
theorem read_weights (c : Dev nD) (t : Fin cfg1.N) (kk : Fin 64) (q : Fin 32) :
    iblk1 V c 1 t (ix2 kk q) = (V c main_arg4 : S64x32.Idx → EReal) (ix2 kk q) := by
  obtain ⟨-, -, e10, e11, -, -⟩ := index_maps t
  show (V c main_arg4 : S64x32.Idx → EReal) (((cfg1.win 1).blk t).view.emb (ix2 kk q)) = _
  refine congrArg _ ?_
  funext a; apply Fin.ext
  match a with
  | ⟨0, _⟩ => show win1_1.index t (0 : Fin 2) * 64 + 1 * kk.val = kk.val; omega
  | ⟨1, _⟩ => show win1_1.index t (1 : Fin 2) * 32 + 1 * q.val = q.val; omega

/-- Entry `j` of point `t`'s output block sits at row `row t (j 0)`, column `j 1` of the output array. -/
theorem out_at (t : Fin cfg1.N) (j : S10000x32.Idx) :
    ((cfg1.win 2).blk t).view.emb j = (ix2 (row t (j 0)) (j 1) : S100000x32.Idx) := by
  obtain ⟨-, -, -, -, e20, e21⟩ := index_maps t
  funext a; apply Fin.ext
  match a with
  | ⟨0, _⟩ => show win1_2.index t (0 : Fin 2) * 10000 + 1 * (j 0).val = t.val * 10000 + (j 0).val; omega
  | ⟨1, _⟩ => show win1_2.index t (1 : Fin 2) * 32 + 1 * (j 1).val = (j 1).val; omega

/-- WHAT POINT `t` WRITES BACK is block `t` of the product of the region's two input arrays. -/
theorem flushed_eq (c : Dev nD) (t : Fin cfg1.N) :
    (dat1 V c).flushed 2 t = ((cfg1.win 2).blk t).view.read (Elt Ideal)
      (rowsTimes (V c main_v47 : S100000x64.Idx → EReal) (V c main_arg4 : S64x32.Idx → EReal) : S100000x32.Idx → EReal) := by
  show (cfg1.win 2).cut (grid1.coords t) ((dat1 V c).after 2 t) = _
  rw [after1_2]
  unfold out1_2
  rw [View.canon_unit_zero zero_offset]
  simp only [View.ld_unit_zero (S := S10000x64) zero_offset, View.ld_unit_zero (S := S64x32) zero_offset]
  funext j
  show k1_pay1 (iblk1 V c 0 t) (iblk1 V c 1 t) j
    = rowsTimes (V c main_v47 : S100000x64.Idx → EReal) (V c main_arg4 : S64x32.Idx → EReal) (((cfg1.win 2).blk t).view.emb j)
  rw [out_at t j]
  exact entry_eq (iblk1 V c 0 t) (iblk1 V c 1 t) (V c main_v47) (V c main_arg4) j (row t (j 0))
    (fun kk => read_rows V c t (j 0) kk) (fun kk => read_weights V c t kk (j 1))

/-- An index of the output array is in point `t`'s block iff each coordinate is in the block's range on its axis. -/
theorem mem_block (t : Fin cfg1.N) (i : S100000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v48).slice (win1_2.rect t)).set ↔ _
  rw [View.set_slice_whole, Rect.mem_set_unit]
  exact Iff.rfl

/-- Every index of the output array is in some point's block: row r is covered by point r / 10000. -/
theorem covered (i : S100000x32.Idx) :
    ∃ t : Fin cfg1.N, (cfg1.win 2).flush t = true ∧ i ∈ ((cfg1.win 2).blk t).view.set := by
  have hi0 : (i 0).val < 100000 := (i 0).isLt
  have hi1 : (i 1).val < 32 := (i 1).isLt
  have hN : (i 0).val / 10000 < cfg1.N := lt_of_lt_of_eq (by omega : (i 0).val / 10000 < 10) N_1.symm
  obtain ⟨-, -, -, -, e20, e21⟩ := index_maps ⟨(i 0).val / 10000, hN⟩
  have e20' : win1_2.index ⟨(i 0).val / 10000, hN⟩ (0 : Fin 2) = (i 0).val / 10000 := e20
  refine ⟨⟨(i 0).val / 10000, hN⟩, flush1_2 _, ?_⟩
  rw [mem_block]
  intro a
  match a with
  | ⟨0, _⟩ => show win1_2.index ⟨(i 0).val / 10000, hN⟩ (0 : Fin 2) * 10000 ≤ (i 0).val ∧ (i 0).val < win1_2.index ⟨(i 0).val / 10000, hN⟩ (0 : Fin 2) * 10000 + 10000; omega
  | ⟨1, _⟩ => show win1_2.index ⟨(i 0).val / 10000, hN⟩ (1 : Fin 2) * 32 ≤ (i 1).val ∧ (i 1).val < win1_2.index ⟨(i 0).val / 10000, hN⟩ (1 : Fin 2) * 32 + 32; omega

/-- THE OUTPUT ARRAY after the region is the product of the region's two input arrays. -/
theorem product (c : Dev nD) :
    (dat1 V c).arrAt 2 cfg1.N
      = (rowsTimes (V c main_v47 : S100000x64.Idx → EReal) (V c main_arg4 : S64x32.Idx → EReal) : S100000x32.Idx → EReal) :=
  (dat1 V c).arrAt_eq_of_cover 2 _ (fun t _ => flushed_eq V c t) (covered)

end Cert.KernelIdeal.Product1

end
-- ==== Proof.KernelValue.lean ====
/-
  The kernel program's result buffer, as the network function of its arguments.

  The contents of the buffers at the boundaries of @main's eight segments are a fold from the launch memory. Read
  stretch by stretch: a stretch of host operations gives each buffer it writes as a function of what ANY contents hold
  in the buffers it reads, and keeps every buffer it does not write; a region replaces its output array by the product
  of its two input arrays (the two product modules) and keeps everything else. Composed from the launch memory to the
  last boundary this gives the result buffer as `network` of the six arguments.
-/
import proofs.«131406_j4432406250067_1_alg».proof.Proof.Gen.KernelIdeal.Frame
import proofs.«131406_j4432406250067_1_alg».proof.Proof.LibStages
import proofs.«131406_j4432406250067_1_alg».proof.Proof.Network
import proofs.«131406_j4432406250067_1_alg».proof.Proof.Product0
import proofs.«131406_j4432406250067_1_alg».proof.Proof.Product1

set_option maxRecDepth 16384

noncomputable section

namespace Cert.KernelIdeal.Result

open Idealize.ShloMosaic Idealize.ShloMosaic.TcCoe Idealize.ShloMosaic.StableHlo Idealize.SL.Sem
open Cert.KernelIdeal Cert.KernelIdeal.Gen Cert.KernelIdeal.Chain Cert.LibStages Cert.Dense

/-! ## Each stretch of host operations, from any contents `W` -/

section Stretches

variable {F : FTy → Type} [FloatOps F]
variable (W : Valuation τ sig (Elt F))

/-- The first stretch writes the endpoints, -/
theorem sources_read : after (hostOps0 (F := F)) W (Proc.devRef .tc main_v3) = sources (W (Proc.devRef .tc main_arg1)) := by
  reads_stretch [hostOps0]
theorem targets_read : after (hostOps0 (F := F)) W (Proc.devRef .tc main_v6) = targets (W (Proc.devRef .tc main_arg1)) := by
  reads_stretch [hostOps0]
/-- where the degree is positive, its inverse square root, and the 0 the normaliser falls back to. -/
theorem positive_read : after (hostOps0 (F := F)) W (Proc.devRef .tc main_v12) = positive (degree (targets (W (Proc.devRef .tc main_arg1)))) := by
  reads_stretch [hostOps0]
theorem rsqrt_read : after (hostOps0 (F := F)) W (Proc.devRef .tc main_v13) = Host.rsqrt (degree (targets (W (Proc.devRef .tc main_arg1)))) := by
  reads_stretch [hostOps0]
theorem zero_read : after (hostOps0 (F := F)) W (Proc.devRef .tc main_cst_2) = constant S_ .f32 0x00000000#32 := by
  simp only [hostOps0]
  after_results_simp

/-- The second stretch selects between them. -/
theorem select_read : after (hostOps0_1 (F := F)) W (Proc.devRef .tc main_v14)
    = select (W (Proc.devRef .tc main_v12)) (W (Proc.devRef .tc main_v13)) (broadcastInDim S100000 ![] Facts₀.bcast_S_S100000 (id (W (Proc.devRef .tc main_cst_2)))) := by
  reads_stretch [hostOps0_1]
theorem select_keeps_sources : after (hostOps0_1 (F := F)) W (Proc.devRef .tc main_v3) = W (Proc.devRef .tc main_v3) := by
  keeps_stretch [hostOps0_1]
theorem select_keeps_targets : after (hostOps0_1 (F := F)) W (Proc.devRef .tc main_v6) = W (Proc.devRef .tc main_v6) := by
  keeps_stretch [hostOps0_1]

/-- The third stretch writes the edge weights. -/
theorem weight_read : after (hostOps0_2 (F := F)) W (Proc.devRef .tc main_v29)
    = edgeWeight (W (Proc.devRef .tc main_v14)) (W (Proc.devRef .tc main_v3)) (W (Proc.devRef .tc main_v6)) := by
  reads_stretch [hostOps0_2]
theorem weight_keeps_sources : after (hostOps0_2 (F := F)) W (Proc.devRef .tc main_v3) = W (Proc.devRef .tc main_v3) := by
  keeps_stretch [hostOps0_2]
theorem weight_keeps_targets : after (hostOps0_2 (F := F)) W (Proc.devRef .tc main_v6) = W (Proc.devRef .tc main_v6) := by
  keeps_stretch [hostOps0_2]

/-- None of the three stretches before the first region writes an argument. -/
theorem before_keeps_arg0 : after (hostOps0_2 (F := F)) (after hostOps0_1 (after hostOps0 W)) (Proc.devRef .tc main_arg0) = W (Proc.devRef .tc main_arg0) := by
  rw [← StableHlo.after_append, ← StableHlo.after_append]; keeps_stretch [hostOps0, hostOps0_1, hostOps0_2]
theorem before_keeps_arg2 : after (hostOps0_2 (F := F)) (after hostOps0_1 (after hostOps0 W)) (Proc.devRef .tc main_arg2) = W (Proc.devRef .tc main_arg2) := by
  rw [← StableHlo.after_append, ← StableHlo.after_append]; keeps_stretch [hostOps0, hostOps0_1, hostOps0_2]
theorem before_keeps_arg3 : after (hostOps0_2 (F := F)) (after hostOps0_1 (after hostOps0 W)) (Proc.devRef .tc main_arg3) = W (Proc.devRef .tc main_arg3) := by
  rw [← StableHlo.after_append, ← StableHlo.after_append]; keeps_stretch [hostOps0, hostOps0_1, hostOps0_2]
theorem before_keeps_arg4 : after (hostOps0_2 (F := F)) (after hostOps0_1 (after hostOps0 W)) (Proc.devRef .tc main_arg4) = W (Proc.devRef .tc main_arg4) := by
  rw [← StableHlo.after_append, ← StableHlo.after_append]; keeps_stretch [hostOps0, hostOps0_1, hostOps0_2]
theorem before_keeps_arg5 : after (hostOps0_2 (F := F)) (after hostOps0_1 (after hostOps0 W)) (Proc.devRef .tc main_arg5) = W (Proc.devRef .tc main_arg5) := by
  rw [← StableHlo.after_append, ← StableHlo.after_append]; keeps_stretch [hostOps0, hostOps0_1, hostOps0_2]

/-- Between the regions: the first layer's aggregation, then its positive part. -/
theorem aggregate64_read : after (hostOps1 (F := F)) W (Proc.devRef .tc main_v46)
    = aggregate64 (W (Proc.devRef .tc main_v30)) (W (Proc.devRef .tc main_v3)) (W (Proc.devRef .tc main_v6)) (W (Proc.devRef .tc main_v29)) (W (Proc.devRef .tc main_arg3)) := by
  reads_stretch [hostOps1]
theorem positivePart_read : after (hostOps1_1 (F := F)) W (Proc.devRef .tc main_v47) = positivePart (W (Proc.devRef .tc main_v46)) := by
  reads_stretch [hostOps1_1]
/-- Neither stretch between the regions writes the endpoints, the edge weights or a later argument. -/
theorem between_keeps_sources : after (hostOps1_1 (F := F)) (after hostOps1 W) (Proc.devRef .tc main_v3) = W (Proc.devRef .tc main_v3) := by
  rw [← StableHlo.after_append]; keeps_stretch [hostOps1, hostOps1_1]
theorem between_keeps_targets : after (hostOps1_1 (F := F)) (after hostOps1 W) (Proc.devRef .tc main_v6) = W (Proc.devRef .tc main_v6) := by
  rw [← StableHlo.after_append]; keeps_stretch [hostOps1, hostOps1_1]
theorem between_keeps_weights : after (hostOps1_1 (F := F)) (after hostOps1 W) (Proc.devRef .tc main_v29) = W (Proc.devRef .tc main_v29) := by
  rw [← StableHlo.after_append]; keeps_stretch [hostOps1, hostOps1_1]
theorem between_keeps_arg4 : after (hostOps1_1 (F := F)) (after hostOps1 W) (Proc.devRef .tc main_arg4) = W (Proc.devRef .tc main_arg4) := by
  rw [← StableHlo.after_append]; keeps_stretch [hostOps1, hostOps1_1]
theorem between_keeps_arg5 : after (hostOps1_1 (F := F)) (after hostOps1 W) (Proc.devRef .tc main_arg5) = W (Proc.devRef .tc main_arg5) := by
  rw [← StableHlo.after_append]; keeps_stretch [hostOps1, hostOps1_1]

/-- After the second region: the second layer's aggregation. -/
theorem aggregate32_read : after (hostOps2 (F := F)) W (Proc.devRef .tc main_v64)
    = aggregate32 (W (Proc.devRef .tc main_v48)) (W (Proc.devRef .tc main_v3)) (W (Proc.devRef .tc main_v6)) (W (Proc.devRef .tc main_v29)) (W (Proc.devRef .tc main_arg5)) := by
  reads_stretch [hostOps2]

end Stretches

/-! ## The boundaries' contents, from the launch memory -/

section Boundaries

variable (m : (ℓ : Loc nD τ sig) → Buf (Elt Ideal) ℓ) (ρ : Dev nD → PrngReg) (c : Dev nD)

theorem W1_sources : W1 m ρ c (Proc.devRef .tc main_v3) = sources (m ((c : Thread nD τ).loc main_arg1)) := sources_read (W0 m ρ c)
theorem W1_targets : W1 m ρ c (Proc.devRef .tc main_v6) = targets (m ((c : Thread nD τ).loc main_arg1)) := targets_read (W0 m ρ c)
theorem W1_positive : W1 m ρ c (Proc.devRef .tc main_v12) = positive (degree (targets (m ((c : Thread nD τ).loc main_arg1)))) := positive_read (W0 m ρ c)
theorem W1_rsqrt : W1 m ρ c (Proc.devRef .tc main_v13) = Host.rsqrt (degree (targets (m ((c : Thread nD τ).loc main_arg1)))) := rsqrt_read (W0 m ρ c)
theorem W1_zero : W1 m ρ c (Proc.devRef .tc main_cst_2) = constant (F := Ideal) S_ .f32 0x00000000#32 := zero_read (W0 m ρ c)

theorem W2_sources : W2 m ρ c (Proc.devRef .tc main_v3) = sources (m ((c : Thread nD τ).loc main_arg1)) :=
  (select_keeps_sources (W1 m ρ c)).trans (W1_sources m ρ c)
theorem W2_targets : W2 m ρ c (Proc.devRef .tc main_v6) = targets (m ((c : Thread nD τ).loc main_arg1)) :=
  (select_keeps_targets (W1 m ρ c)).trans (W1_targets m ρ c)
theorem W2_normaliser : W2 m ρ c (Proc.devRef .tc main_v14) = normaliser (degree (targets (m ((c : Thread nD τ).loc main_arg1)))) := by
  refine (select_read (W1 m ρ c)).trans ?_
  rw [W1_positive, W1_rsqrt, W1_zero]
  rfl

/-- At the first region's entry: the endpoints, the edge weights, and the arguments as launched. -/
theorem W3_sources : W3 m ρ c (Proc.devRef .tc main_v3) = sources (m ((c : Thread nD τ).loc main_arg1)) :=
  (weight_keeps_sources (W2 m ρ c)).trans (W2_sources m ρ c)
theorem W3_targets : W3 m ρ c (Proc.devRef .tc main_v6) = targets (m ((c : Thread nD τ).loc main_arg1)) :=
  (weight_keeps_targets (W2 m ρ c)).trans (W2_targets m ρ c)
theorem W3_weights : W3 m ρ c (Proc.devRef .tc main_v29) = weights (m ((c : Thread nD τ).loc main_arg1)) := by
  refine (weight_read (W2 m ρ c)).trans ?_
  rw [W2_normaliser, W2_sources, W2_targets]
  rfl
theorem W3_arg0 : W3 m ρ c (Proc.devRef .tc main_arg0) = m ((c : Thread nD τ).loc main_arg0) := before_keeps_arg0 (W0 m ρ c)
theorem W3_arg2 : W3 m ρ c (Proc.devRef .tc main_arg2) = m ((c : Thread nD τ).loc main_arg2) := before_keeps_arg2 (W0 m ρ c)
theorem W3_arg3 : W3 m ρ c (Proc.devRef .tc main_arg3) = m ((c : Thread nD τ).loc main_arg3) := before_keeps_arg3 (W0 m ρ c)
theorem W3_arg4 : W3 m ρ c (Proc.devRef .tc main_arg4) = m ((c : Thread nD τ).loc main_arg4) := before_keeps_arg4 (W0 m ρ c)
theorem W3_arg5 : W3 m ρ c (Proc.devRef .tc main_arg5) = m ((c : Thread nD τ).loc main_arg5) := before_keeps_arg5 (W0 m ρ c)

/-- At the first region's exit: its output array is the product x · W1; everything else is as entered. -/
theorem W4_product : W4 m ρ c (Proc.devRef .tc main_v30)
    = rowsTimes (M := 100000) (K := 128) (N := 64) (m ((c : Thread nD τ).loc main_arg0)) (m ((c : Thread nD τ).loc main_arg2)) := by
  refine (W4_arr m ρ c 2).trans ((Product0.product (V3 m ρ) c).trans ?_)
  rw [show V3 m ρ c main_arg0 = m ((c : Thread nD τ).loc main_arg0) from W3_arg0 m ρ c,
    show V3 m ρ c main_arg2 = m ((c : Thread nD τ).loc main_arg2) from W3_arg2 m ρ c]
theorem W4_sources : W4 m ρ c (Proc.devRef .tc main_v3) = sources (m ((c : Thread nD τ).loc main_arg1)) :=
  (W4_of_ne m ρ c main_v3 (by decide)).trans (W3_sources m ρ c)
theorem W4_targets : W4 m ρ c (Proc.devRef .tc main_v6) = targets (m ((c : Thread nD τ).loc main_arg1)) :=
  (W4_of_ne m ρ c main_v6 (by decide)).trans (W3_targets m ρ c)
theorem W4_weights : W4 m ρ c (Proc.devRef .tc main_v29) = weights (m ((c : Thread nD τ).loc main_arg1)) :=
  (W4_of_ne m ρ c main_v29 (by decide)).trans (W3_weights m ρ c)
theorem W4_arg3 : W4 m ρ c (Proc.devRef .tc main_arg3) = m ((c : Thread nD τ).loc main_arg3) :=
  (W4_of_ne m ρ c main_arg3 (by decide)).trans (W3_arg3 m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)

/-- At the second region's entry: the first layer's output, and what the second layer still needs. -/
theorem W6_hidden : W6 m ρ c (Proc.devRef .tc main_v47)
    = positivePart (aggregate64 (rowsTimes (M := 100000) (K := 128) (N := 64) (m ((c : Thread nD τ).loc main_arg0)) (m ((c : Thread nD τ).loc main_arg2)))
        (sources (m ((c : Thread nD τ).loc main_arg1))) (targets (m ((c : Thread nD τ).loc main_arg1))) (weights (m ((c : Thread nD τ).loc main_arg1)))
        (m ((c : Thread nD τ).loc main_arg3))) := by
  refine (positivePart_read (W5 m ρ c)).trans (congrArg positivePart ?_)
  refine (aggregate64_read (W4 m ρ c)).trans ?_
  rw [W4_product, W4_sources, W4_targets, W4_weights, W4_arg3]
theorem W6_sources : W6 m ρ c (Proc.devRef .tc main_v3) = sources (m ((c : Thread nD τ).loc main_arg1)) :=
  (between_keeps_sources (W4 m ρ c)).trans (W4_sources m ρ c)
theorem W6_targets : W6 m ρ c (Proc.devRef .tc main_v6) = targets (m ((c : Thread nD τ).loc main_arg1)) :=
  (between_keeps_targets (W4 m ρ c)).trans (W4_targets m ρ c)
theorem W6_weights : W6 m ρ c (Proc.devRef .tc main_v29) = weights (m ((c : Thread nD τ).loc main_arg1)) :=
  (between_keeps_weights (W4 m ρ c)).trans (W4_weights m ρ c)
theorem W6_arg4 : W6 m ρ c (Proc.devRef .tc main_arg4) = m ((c : Thread nD τ).loc main_arg4) :=
  (between_keeps_arg4 (W4 m ρ c)).trans (W4_arg4 m ρ c)
theorem W6_arg5 : W6 m ρ c (Proc.devRef .tc main_arg5) = m ((c : Thread nD τ).loc main_arg5) :=
  (between_keeps_arg5 (W4 m ρ c)).trans (W4_arg5 m ρ c)

/-- At the second region's exit: its output array is the product of the first layer's output with W2. -/
theorem W7_product : W7 m ρ c (Proc.devRef .tc main_v48)
    = rowsTimes (M := 100000) (K := 64) (N := 32)
        (positivePart (aggregate64 (rowsTimes (M := 100000) (K := 128) (N := 64) (m ((c : Thread nD τ).loc main_arg0)) (m ((c : Thread nD τ).loc main_arg2)))
          (sources (m ((c : Thread nD τ).loc main_arg1))) (targets (m ((c : Thread nD τ).loc main_arg1))) (weights (m ((c : Thread nD τ).loc main_arg1)))
          (m ((c : Thread nD τ).loc main_arg3))))
        (m ((c : Thread nD τ).loc main_arg4)) := by
  refine (W7_arr m ρ c 2).trans ((Product1.product (V6 m ρ) c).trans ?_)
  rw [show V6 m ρ c main_v47 = _ from W6_hidden m ρ c,
    show V6 m ρ c main_arg4 = m ((c : Thread nD τ).loc main_arg4) from W6_arg4 m ρ c]
theorem W7_sources : W7 m ρ c (Proc.devRef .tc main_v3) = sources (m ((c : Thread nD τ).loc main_arg1)) :=
  (W7_of_ne m ρ c main_v3 (by decide)).trans (W6_sources m ρ c)
theorem W7_targets : W7 m ρ c (Proc.devRef .tc main_v6) = targets (m ((c : Thread nD τ).loc main_arg1)) :=
  (W7_of_ne m ρ c main_v6 (by decide)).trans (W6_targets m ρ c)
theorem W7_weights : W7 m ρ c (Proc.devRef .tc main_v29) = weights (m ((c : Thread nD τ).loc main_arg1)) :=
  (W7_of_ne m ρ c main_v29 (by decide)).trans (W6_weights m ρ c)
theorem W7_arg5 : W7 m ρ c (Proc.devRef .tc main_arg5) = m ((c : Thread nD τ).loc main_arg5) :=
  (W7_of_ne m ρ c main_arg5 (by decide)).trans (W6_arg5 m ρ c)

/-- THE RESULT BUFFER at the last boundary is the network of the six arguments as launched. -/
theorem result : W8 m ρ c (Proc.devRef .tc main_v64)
    = network (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (aggregate32_read (W7 m ρ c)).trans ?_
  rw [W7_product, W7_sources, W7_targets, W7_weights, W7_arg5]
  rfl

end Boundaries

end Cert.KernelIdeal.Result

end
-- ==== Proof.RefValue.lean ====
/-
  The reference program's result buffer, as the network function of its arguments.

  The reference's run ends with its result at the composed term of its 83 host operations. That term is the kernel
  program's chain of graph operations word for word, with a host `dot_general` where the kernel program has a region;
  each `dot_general` has the plain dimension numbers, so it is the product `rowsTimes`, and the term is `network` of the
  six arguments.
-/
import proofs.«131406_j4432406250067_1_alg».proof.Proof.RefRun
import proofs.«131406_j4432406250067_1_alg».proof.Proof.Network

set_option maxRecDepth 16384

noncomputable section

namespace Cert.ReferenceIdeal.Result

open Idealize.ShloMosaic Idealize.SL.Sem Cert.Dense Cert.KernelIdeal.Chain

variable (m : (ℓ : Loc Cert.ReferenceIdeal.nD Cert.ReferenceIdeal.τ Cert.ReferenceIdeal.sig) → Buf (Elt Ideal) ℓ) (c : Dev Cert.ReferenceIdeal.nD)

/-- THE RESULT of the reference's run is the network of the six arguments as launched. -/
theorem result : Cert.ReferenceIdeal.ValueP.res_main_v64 (F := Ideal) m c
    = network (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
        (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) := by
  unfold Cert.ReferenceIdeal.ValueP.res_main_v64
  rw [dotGeneral_eq Cert.ReferenceIdeal.dot_S100000x128_S128x64_S100000x64_1_0_0_1_n_n rfl rfl rfl rfl rfl rfl none,
    dotGeneral_eq Cert.ReferenceIdeal.dot_S100000x64_S64x32_S100000x32_1_0_0_1_n_n rfl rfl rfl rfl rfl rfl none]
  rfl

end Cert.ReferenceIdeal.Result

end
-- ==== Proof.lean ====
/-
  A two-layer graph convolution: the kernel program against its reference, on the extended reals.

  Both programs compute out = A (relu (A (x · W1) + b1) · W2) + b2, where A gathers rows at the edges' sources, scales
  them by the symmetric-normalisation weights, and scatter-adds them at the targets — every one of these graph
  operations spelt identically, on the host, in both programs. They differ only in the two dense products: the
  reference takes each as one `dot_general`; the kernel program computes each in a region of ten grid points, point t
  multiplying rows 10000·t … 10000·t + 9999 of the left operand (narrowed to bf16, which is no change on the extended
  reals) with the whole weight matrix into a zero accumulator. An entry of a product depends only on its own row and
  column, so the ten row blocks are the blocks of the one product, and both programs end at the same function
  `network` of the six arguments. The only arithmetic law used is 0 + s = s; the precondition is not needed.

  The three frames: the kernel program's two are the generated frame certificates; the reference's is its run with
  the result dropped. The idealization rewrote nothing, so `preserves` is `True`.
-/
import proofs.«131406_j4432406250067_1_alg».proof.Defs
import proofs.«131406_j4432406250067_1_alg».proof.Proof.Gen.Kernel
import proofs.«131406_j4432406250067_1_alg».proof.Proof.Gen.Kernel.Skeleton
import proofs.«131406_j4432406250067_1_alg».proof.Proof.Gen.Kernel.Launch
import proofs.«131406_j4432406250067_1_alg».proof.Proof.Gen.Kernel.Points
import proofs.«131406_j4432406250067_1_alg».proof.Proof.Gen.Kernel.Frame
import proofs.«131406_j4432406250067_1_alg».proof.Proof.Gen.KernelIdeal
import proofs.«131406_j4432406250067_1_alg».proof.Proof.Gen.KernelIdeal.Skeleton
import proofs.«131406_j4432406250067_1_alg».proof.Proof.Gen.KernelIdeal.Launch
import proofs.«131406_j4432406250067_1_alg».proof.Proof.Gen.KernelIdeal.Points
import proofs.«131406_j4432406250067_1_alg».proof.Proof.Gen.KernelIdeal.Frame
import proofs.«131406_j4432406250067_1_alg».proof.Proof.Gen.ReferenceIdeal
import proofs.«131406_j4432406250067_1_alg».proof.Proof.Gen.Pre_finite_inputs
import proofs.«131406_j4432406250067_1_alg».proof.Proof.KernelRun
import proofs.«131406_j4432406250067_1_alg».proof.Proof.KernelValue
import proofs.«131406_j4432406250067_1_alg».proof.Proof.RefRun
import proofs.«131406_j4432406250067_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_ideal : Cert.frame_KernelIdeal := fun m ρ _ => Cert.KernelIdeal.Gen.frame m ρ

/-- The reference's frame: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result at `network` of the arguments: the kernel program's by the fold through its segments,
    the reference's by its composed term; the arguments agree. -/
theorem algebraic : Cert.algebraic_KernelIdeal_ReferenceIdeal := by
  intro m ρ m' ρ' _ hagree
  refine ⟨fun c => Cert.KernelIdeal.Chain.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Result.result m ρ c), (h c).2⟩)
      (Cert.KernelIdeal.Whole.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.Result.result m' c, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
